-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S192x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1250000 32) (main_arg2 : FVec F S1250000x64 .f32) (main_arg3 : FVec F S64x64 .f32) (main_arg4 : FVec F S64 .f32) (main_arg5 : FVec F S64x64 .f32) (main_arg6 : FVec F S64 .f32) (main_arg7 : FVec F S192x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg2
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1x64 : Shape := ⟨2, ![1, 64]⟩
abbrev S5000x64 : Shape := ⟨2, ![5000, 64]⟩

abbrev nBuf : Space → Nat
  | .hbm => 54
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x64, .f32⟩
  | .hbm, ⟨23, _⟩ => ⟨S_, .f32⟩
  | .hbm, ⟨24, _⟩ => ⟨S1250000x64, .f32⟩
  | .hbm, ⟨25, _⟩ => ⟨S1250000x64, .f32⟩
  | .hbm, ⟨26, _⟩ => ⟨S_, .f32⟩
  | .hbm, ⟨27, _⟩ => ⟨S100000x64, .f32⟩
  | .hbm, ⟨28, _⟩ => ⟨S1250000x1, .i32⟩
  | .hbm, ⟨29, _⟩ => ⟨S100000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000x64, .f32⟩
  | .hbm, ⟨39, _⟩ => ⟨S1250000x64, .f32⟩
  | .hbm, ⟨40, _⟩ => ⟨S_, .f32⟩
  | .hbm, ⟨41, _⟩ => ⟨S1250000x64, .f32⟩
  | .hbm, ⟨42, _⟩ => ⟨S1250000x64, .f32⟩
  | .hbm, ⟨43, _⟩ => ⟨S_, .f32⟩
  | .hbm, ⟨44, _⟩ => ⟨S100000x64, .f32⟩
  | .hbm, ⟨45, _⟩ => ⟨S1250000x1, .i32⟩
  | .hbm, ⟨46, _⟩ => ⟨S100000x64, .f32⟩
  | .hbm, ⟨47, _⟩ => ⟨S1x64, .f32⟩
  | .hbm, ⟨48, _⟩ => ⟨S1x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S1x64, .f32⟩
  | .hbm, ⟨53, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  shapeCasts_S64_S1x64 : S64.ShapeCasts S1x64
  slices_S192x64_S64x64_0_0 : S192x64.Slices ![0, 0] S64x64
  slices_S192x64_S64x64_64_0 : S192x64.Slices ![64, 0] S64x64
  slices_S192x64_S64x64_128_0 : S192x64.Slices ![128, 0] S64x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S64x64_S64x64 : S64x64.ShapeCasts S64x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1x64 : Shape := ⟨2, ![1, 64]⟩
abbrev S100000x192 : Shape := ⟨2, ![100000, 192]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x64, .f32⟩
  | .hbm, ⟨23, _⟩ => ⟨S_, .f32⟩
  | .hbm, ⟨24, _⟩ => ⟨S1250000x64, .f32⟩
  | .hbm, ⟨25, _⟩ => ⟨S1250000x64, .f32⟩
  | .hbm, ⟨26, _⟩ => ⟨S_, .f32⟩
  | .hbm, ⟨27, _⟩ => ⟨S100000x64, .f32⟩
  | .hbm, ⟨28, _⟩ => ⟨S1250000x1, .i32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1250000, .i32⟩
  | .hbm, ⟨43, _⟩ => ⟨S1250000, .i1⟩
  | .hbm, ⟨44, _⟩ => ⟨S_, .i32⟩
  | .hbm, ⟨45, _⟩ => ⟨S1250000, .i32⟩
  | .hbm, ⟨46, _⟩ => ⟨S1250000, .i32⟩
  | .hbm, ⟨47, _⟩ => ⟨S1250000, .i32⟩
  | .hbm, ⟨48, _⟩ => ⟨S1250000x1, .i32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S1250000x64, .f32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x192, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x192_S192x64_S100000x64_1_0_0_1_n_n_wf : DotDims.WF S100000x192 S192x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.BlockReads.lean ====
/-
  Each input block, read where it lies in its array.

  The grid has 20 points. At point `t` the three row-blocked inputs (the node features and the two aggregated arrays)
  and the result are at block `(t, 0)` of 5000 rows, so row `p` of the block is node row `5000·t + p`; the eight
  weight and bias inputs stay at block `(0, 0)`, which is the whole array.
-/
import proofs.«162999_j30227979829589_2_alg».proof.Proof.Gen.KernelIdeal.Value
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- There are 20 grid points. -/
theorem point_lt (t : Fin cfg0.N) : t.val < 20 := by
  have h : t.val < grid0.N := t.isLt
  rw [N_0] at h
  exact h

/-- The node row that row `p` of point `t`'s block is. -/
def rowOf (t : Fin cfg0.N) (p : Fin 5000) : Fin 100000 :=
  ⟨t.val * 5000 + p.val, by have := point_lt t; have := p.isLt; omega⟩

/-- The printed index maps of the row-blocked windows, decided over the 20 points: block `(t, 0)`. -/
theorem index_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0) :=
  (by decide +kernel : ∀ t : Fin grid0.N, _)

/-- The printed index maps of the weight and bias windows, decided over the 20 points: block `(0, 0)`. -/
theorem index_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The row-blocked inputs

Each read is stated first for ANY array in the window's place (the block's position does not depend on what the array
holds), then for the array the region finds there. -/

theorem feat_block (X : S100000x64.Idx → EReal) (t : Fin cfg0.N) (p : Fin 5000) (k : Fin 64) :
    ((cfg0.win 0).blk t).view.read (Elt Ideal) X (ix2 p k) = X (ix2 (rowOf t p) k) := by
  show X (((cfg0.win 0).blk t).view.emb (ix2 p k)) = _
  have e : ((cfg0.win 0).blk t).view.emb (ix2 p k) = (ix2 (rowOf t p) k : S100000x64.Idx) := by
    funext a; apply Fin.ext
    match a with
    | ⟨0, _⟩ => show win0_0.index t (0 : Fin 2) * 5000 + 1 * p.val = t.val * 5000 + p.val; have h := (index_rows t).1.1; omega
    | ⟨1, _⟩ => show win0_0.index t (1 : Fin 2) * 64 + 1 * k.val = k.val; have h := (index_rows t).1.2; omega
  rw [e]

theorem feat_read (c : Dev nD) (t : Fin cfg0.N) (p : Fin 5000) (k : Fin 64) :
    iblk m c 0 t (ix2 p k) = (V m c (Pipeline.arrRef spec0 0) : S100000x64.Idx → EReal) (ix2 (rowOf t p) k) :=
  feat_block (V m c (Pipeline.arrRef spec0 0)) t p k

theorem aggIn_block (X : S100000x64.Idx → EReal) (t : Fin cfg0.N) (p : Fin 5000) (k : Fin 64) :
    ((cfg0.win 1).blk t).view.read (Elt Ideal) X (ix2 p k) = X (ix2 (rowOf t p) k) := by
  show X (((cfg0.win 1).blk t).view.emb (ix2 p k)) = _
  have e : ((cfg0.win 1).blk t).view.emb (ix2 p k) = (ix2 (rowOf t p) k : S100000x64.Idx) := by
    funext a; apply Fin.ext
    match a with
    | ⟨0, _⟩ => show win0_1.index t (0 : Fin 2) * 5000 + 1 * p.val = t.val * 5000 + p.val; have h := (index_rows t).2.1.1; omega
    | ⟨1, _⟩ => show win0_1.index t (1 : Fin 2) * 64 + 1 * k.val = k.val; have h := (index_rows t).2.1.2; omega
  rw [e]

theorem aggIn_read (c : Dev nD) (t : Fin cfg0.N) (p : Fin 5000) (k : Fin 64) :
    iblk m c 1 t (ix2 p k) = (V m c (Pipeline.arrRef spec0 1) : S100000x64.Idx → EReal) (ix2 (rowOf t p) k) :=
  aggIn_block (V m c (Pipeline.arrRef spec0 1)) t p k

theorem aggOut_block (X : S100000x64.Idx → EReal) (t : Fin cfg0.N) (p : Fin 5000) (k : Fin 64) :
    ((cfg0.win 2).blk t).view.read (Elt Ideal) X (ix2 p k) = X (ix2 (rowOf t p) k) := by
  show X (((cfg0.win 2).blk t).view.emb (ix2 p k)) = _
  have e : ((cfg0.win 2).blk t).view.emb (ix2 p k) = (ix2 (rowOf t p) k : S100000x64.Idx) := by
    funext a; apply Fin.ext
    match a with
    | ⟨0, _⟩ => show win0_2.index t (0 : Fin 2) * 5000 + 1 * p.val = t.val * 5000 + p.val; have h := (index_rows t).2.2.1.1; omega
    | ⟨1, _⟩ => show win0_2.index t (1 : Fin 2) * 64 + 1 * k.val = k.val; have h := (index_rows t).2.2.1.2; omega
  rw [e]

theorem aggOut_read (c : Dev nD) (t : Fin cfg0.N) (p : Fin 5000) (k : Fin 64) :
    iblk m c 2 t (ix2 p k) = (V m c (Pipeline.arrRef spec0 2) : S100000x64.Idx → EReal) (ix2 (rowOf t p) k) :=
  aggOut_block (V m c (Pipeline.arrRef spec0 2)) t p k

/-! ## The weights and biases -/

theorem w1_block (X : S64x64.Idx → EReal) (t : Fin cfg0.N) (d h : Fin 64) :
    ((cfg0.win 3).blk t).view.read (Elt Ideal) X (ix2 d h) = X (ix2 d h) := by
  show X (((cfg0.win 3).blk t).view.emb (ix2 d h)) = _
  have e : ((cfg0.win 3).blk t).view.emb (ix2 d h) = (ix2 d h : S64x64.Idx) := by
    funext a; apply Fin.ext
    match a with
    | ⟨0, _⟩ => show win0_3.index t (0 : Fin 2) * 64 + 1 * d.val = d.val; have h0 := (index_fixed t).1.1; omega
    | ⟨1, _⟩ => show win0_3.index t (1 : Fin 2) * 64 + 1 * h.val = h.val; have h1 := (index_fixed t).1.2; omega
  rw [e]

theorem w1_read (c : Dev nD) (t : Fin cfg0.N) (d h : Fin 64) :
    iblk m c 3 t (ix2 d h) = (V m c (Pipeline.arrRef spec0 3) : S64x64.Idx → EReal) (ix2 d h) :=
  w1_block (V m c (Pipeline.arrRef spec0 3)) t d h

theorem b1_block (X : S1x64.Idx → EReal) (t : Fin cfg0.N) (h : Fin 64) :
    ((cfg0.win 4).blk t).view.read (Elt Ideal) X (ix2 (0 : Fin 1) h) = X (ix2 (0 : Fin 1) h) := by
  show X (((cfg0.win 4).blk t).view.emb (ix2 (0 : Fin 1) h)) = _
  have e : ((cfg0.win 4).blk t).view.emb (ix2 (0 : Fin 1) h) = (ix2 (0 : Fin 1) h : S1x64.Idx) := by
    funext a; apply Fin.ext
    match a with
    | ⟨0, _⟩ => show win0_4.index t (0 : Fin 2) * 1 + 1 * 0 = 0; have h0 := (index_fixed t).2.1.1; omega
    | ⟨1, _⟩ => show win0_4.index t (1 : Fin 2) * 64 + 1 * h.val = h.val; have h1 := (index_fixed t).2.1.2; omega
  rw [e]

theorem b1_read (c : Dev nD) (t : Fin cfg0.N) (h : Fin 64) :
    iblk m c 4 t (ix2 (0 : Fin 1) h) = (V m c (Pipeline.arrRef spec0 4) : S1x64.Idx → EReal) (ix2 (0 : Fin 1) h) :=
  b1_block (V m c (Pipeline.arrRef spec0 4)) t h

theorem w2_block (X : S64x64.Idx → EReal) (t : Fin cfg0.N) (d h : Fin 64) :
    ((cfg0.win 5).blk t).view.read (Elt Ideal) X (ix2 d h) = X (ix2 d h) := by
  show X (((cfg0.win 5).blk t).view.emb (ix2 d h)) = _
  have e : ((cfg0.win 5).blk t).view.emb (ix2 d h) = (ix2 d h : S64x64.Idx) := by
    funext a; apply Fin.ext
    match a with
    | ⟨0, _⟩ => show win0_5.index t (0 : Fin 2) * 64 + 1 * d.val = d.val; have h0 := (index_fixed t).2.2.1.1; omega
    | ⟨1, _⟩ => show win0_5.index t (1 : Fin 2) * 64 + 1 * h.val = h.val; have h1 := (index_fixed t).2.2.1.2; omega
  rw [e]

theorem w2_read (c : Dev nD) (t : Fin cfg0.N) (d h : Fin 64) :
    iblk m c 5 t (ix2 d h) = (V m c (Pipeline.arrRef spec0 5) : S64x64.Idx → EReal) (ix2 d h) :=
  w2_block (V m c (Pipeline.arrRef spec0 5)) t d h

theorem b2_block (X : S1x64.Idx → EReal) (t : Fin cfg0.N) (h : Fin 64) :
    ((cfg0.win 6).blk t).view.read (Elt Ideal) X (ix2 (0 : Fin 1) h) = X (ix2 (0 : Fin 1) h) := by
  show X (((cfg0.win 6).blk t).view.emb (ix2 (0 : Fin 1) h)) = _
  have e : ((cfg0.win 6).blk t).view.emb (ix2 (0 : Fin 1) h) = (ix2 (0 : Fin 1) h : S1x64.Idx) := by
    funext a; apply Fin.ext
    match a with
    | ⟨0, _⟩ => show win0_6.index t (0 : Fin 2) * 1 + 1 * 0 = 0; have h0 := (index_fixed t).2.2.2.1.1; omega
    | ⟨1, _⟩ => show win0_6.index t (1 : Fin 2) * 64 + 1 * h.val = h.val; have h1 := (index_fixed t).2.2.2.1.2; omega
  rw [e]

theorem b2_read (c : Dev nD) (t : Fin cfg0.N) (h : Fin 64) :
    iblk m c 6 t (ix2 (0 : Fin 1) h) = (V m c (Pipeline.arrRef spec0 6) : S1x64.Idx → EReal) (ix2 (0 : Fin 1) h) :=
  b2_block (V m c (Pipeline.arrRef spec0 6)) t h

theorem wx_block (X : S64x64.Idx → EReal) (t : Fin cfg0.N) (d h : Fin 64) :
    ((cfg0.win 7).blk t).view.read (Elt Ideal) X (ix2 d h) = X (ix2 d h) := by
  show X (((cfg0.win 7).blk t).view.emb (ix2 d h)) = _
  have e : ((cfg0.win 7).blk t).view.emb (ix2 d h) = (ix2 d h : S64x64.Idx) := by
    funext a; apply Fin.ext
    match a with
    | ⟨0, _⟩ => show win0_7.index t (0 : Fin 2) * 64 + 1 * d.val = d.val; have h0 := (index_fixed t).2.2.2.2.1.1; omega
    | ⟨1, _⟩ => show win0_7.index t (1 : Fin 2) * 64 + 1 * h.val = h.val; have h1 := (index_fixed t).2.2.2.2.1.2; omega
  rw [e]

theorem wx_read (c : Dev nD) (t : Fin cfg0.N) (d h : Fin 64) :
    iblk m c 7 t (ix2 d h) = (V m c (Pipeline.arrRef spec0 7) : S64x64.Idx → EReal) (ix2 d h) :=
  wx_block (V m c (Pipeline.arrRef spec0 7)) t d h

theorem win_block (X : S64x64.Idx → EReal) (t : Fin cfg0.N) (d h : Fin 64) :
    ((cfg0.win 8).blk t).view.read (Elt Ideal) X (ix2 d h) = X (ix2 d h) := by
  show X (((cfg0.win 8).blk t).view.emb (ix2 d h)) = _
  have e : ((cfg0.win 8).blk t).view.emb (ix2 d h) = (ix2 d h : S64x64.Idx) := by
    funext a; apply Fin.ext
    match a with
    | ⟨0, _⟩ => show win0_8.index t (0 : Fin 2) * 64 + 1 * d.val = d.val; have h0 := (index_fixed t).2.2.2.2.2.1.1; omega
    | ⟨1, _⟩ => show win0_8.index t (1 : Fin 2) * 64 + 1 * h.val = h.val; have h1 := (index_fixed t).2.2.2.2.2.1.2; omega
  rw [e]

theorem win_read (c : Dev nD) (t : Fin cfg0.N) (d h : Fin 64) :
    iblk m c 8 t (ix2 d h) = (V m c (Pipeline.arrRef spec0 8) : S64x64.Idx → EReal) (ix2 d h) :=
  win_block (V m c (Pipeline.arrRef spec0 8)) t d h

theorem wout_block (X : S64x64.Idx → EReal) (t : Fin cfg0.N) (d h : Fin 64) :
    ((cfg0.win 9).blk t).view.read (Elt Ideal) X (ix2 d h) = X (ix2 d h) := by
  show X (((cfg0.win 9).blk t).view.emb (ix2 d h)) = _
  have e : ((cfg0.win 9).blk t).view.emb (ix2 d h) = (ix2 d h : S64x64.Idx) := by
    funext a; apply Fin.ext
    match a with
    | ⟨0, _⟩ => show win0_9.index t (0 : Fin 2) * 64 + 1 * d.val = d.val; have h0 := (index_fixed t).2.2.2.2.2.2.1.1; omega
    | ⟨1, _⟩ => show win0_9.index t (1 : Fin 2) * 64 + 1 * h.val = h.val; have h1 := (index_fixed t).2.2.2.2.2.2.1.2; omega
  rw [e]

theorem wout_read (c : Dev nD) (t : Fin cfg0.N) (d h : Fin 64) :
    iblk m c 9 t (ix2 d h) = (V m c (Pipeline.arrRef spec0 9) : S64x64.Idx → EReal) (ix2 d h) :=
  wout_block (V m c (Pipeline.arrRef spec0 9)) t d h

theorem bl_block (X : S1x64.Idx → EReal) (t : Fin cfg0.N) (h : Fin 64) :
    ((cfg0.win 10).blk t).view.read (Elt Ideal) X (ix2 (0 : Fin 1) h) = X (ix2 (0 : Fin 1) h) := by
  show X (((cfg0.win 10).blk t).view.emb (ix2 (0 : Fin 1) h)) = _
  have e : ((cfg0.win 10).blk t).view.emb (ix2 (0 : Fin 1) h) = (ix2 (0 : Fin 1) h : S1x64.Idx) := by
    funext a; apply Fin.ext
    match a with
    | ⟨0, _⟩ => show win0_10.index t (0 : Fin 2) * 1 + 1 * 0 = 0; have h0 := (index_fixed t).2.2.2.2.2.2.2.1; omega
    | ⟨1, _⟩ => show win0_10.index t (1 : Fin 2) * 64 + 1 * h.val = h.val; have h1 := (index_fixed t).2.2.2.2.2.2.2.2; omega
  rw [e]

theorem bl_read (c : Dev nD) (t : Fin cfg0.N) (h : Fin 64) :
    iblk m c 10 t (ix2 (0 : Fin 1) h) = (V m c (Pipeline.arrRef spec0 10) : S1x64.Idx → EReal) (ix2 (0 : Fin 1) h) :=
  bl_block (V m c (Pipeline.arrRef spec0 10)) t h

end Cert.KernelIdeal.BlockReads

end
-- ==== Proof.NodeRow.lean ====
/-
  One node's output row, as a function of that node's three feature rows.

  For a node with feature row `x` and aggregated message rows `a` (incoming) and `b` (outgoing), each of
  length 64, the layer computes

      net a k   = (∑ h, max ((∑ d, a d · W1 d h) + b1 h) 0 · W2 h k) + b2 k        (the shared two-layer network)
      out q     = ((∑ k, x k · Wx k q) + (∑ k, net a k · Win k q)) + (∑ k, net b k · Wout k q) + bl q

  over the extended reals. The reference instead joins `x`, `net a`, `net b` into one row of length 192 and
  multiplies it by the 192 × 64 matrix whose row blocks are `Wx`, `Win`, `Wout`. The two agree because a sum over
  192 indices is the sum of the sums over its three consecutive stretches of 64 (`sum_three_stretches`,
  `joined_row_dot`): only associativity and commutativity of addition are used, so no finiteness is needed.
-/
import Idealize.ShloMosaic.PureOps.Ideal
import Idealize.ShloMosaic.PureOps.Ideal.Laws
import Idealize.ShloMosaic.Lib.ValueIdx

noncomputable section

namespace Cert.NodeRow

open Idealize.ShloMosaic

/-- The lower bound of the rectifier: the value of the all-zero f32 word (the real number 0; it is the same word on
    both sides and is never evaluated). -/
abbrev floor0 : EReal := Ideal.ofBits .f32 0x00000000#32

/-- The shared two-layer network applied to one row `a`: a linear map, a bias, the rectifier, a second linear map and
    bias. -/
def net (W1 : Fin 64 → Fin 64 → EReal) (b1 : Fin 64 → EReal) (W2 : Fin 64 → Fin 64 → EReal) (b2 : Fin 64 → EReal)
    (a : Fin 64 → EReal) (k : Fin 64) : EReal :=
  (∑ h : Fin 64, max ((∑ d : Fin 64, a d * W1 d h) + b1 h) floor0 * W2 h k) + b2 k

/-- The final projection of three rows by three 64 × 64 matrices, summed left to right, plus a bias. -/
def project (Wx Win Wout : Fin 64 → Fin 64 → EReal) (bl : Fin 64 → EReal) (x u v : Fin 64 → EReal) (q : Fin 64) : EReal :=
  (((∑ k : Fin 64, x k * Wx k q) + (∑ k : Fin 64, u k * Win k q)) + (∑ k : Fin 64, v k * Wout k q)) + bl q

/-- One node's output row: the projection of its own features and of the network applied to its two aggregates. -/
def out (W1 : Fin 64 → Fin 64 → EReal) (b1 : Fin 64 → EReal) (W2 : Fin 64 → Fin 64 → EReal) (b2 : Fin 64 → EReal)
    (Wx Win Wout : Fin 64 → Fin 64 → EReal) (bl : Fin 64 → EReal) (x a b : Fin 64 → EReal) (q : Fin 64) : EReal :=
  project Wx Win Wout bl x (net W1 b1 W2 b2 a) (net W1 b1 W2 b2 b) q

/-- A sum over 192 indices is the sum over its first, middle and last 64. -/
theorem sum_three_stretches {M : Type} [AddCommMonoid M] (f : Fin 192 → M) :
    ∑ k : Fin 192, f k
      = ((∑ k : Fin 64, f ⟨k.val, by have := k.isLt; omega⟩) + (∑ k : Fin 64, f ⟨64 + k.val, by have := k.isLt; omega⟩))
        + (∑ k : Fin 64, f ⟨128 + k.val, by have := k.isLt; omega⟩) := by
  have h1 : ∑ k : Fin 192, f k = (∑ k : Fin 128, f (Fin.castAdd 64 k)) + ∑ k : Fin 64, f (Fin.natAdd 128 k) :=
    Fin.sum_univ_add (M := M) (a := 128) (b := 64) f
  have h2 : ∑ k : Fin 128, f (Fin.castAdd 64 k)
      = (∑ k : Fin 64, f (Fin.castAdd 64 (Fin.castAdd 64 k))) + ∑ k : Fin 64, f (Fin.castAdd 64 (Fin.natAdd 64 k)) :=
    Fin.sum_univ_add (M := M) (a := 64) (b := 64) fun k => f (Fin.castAdd 64 k)
  rw [h1, h2]
  rfl

/-- The joined row times the stacked matrix: if `cat` is `x`, `u`, `v` end to end, its product with a 192-row matrix
    is the sum of the three products with the matrix's three row blocks. -/
theorem joined_row_dot (cat : Fin 192 → EReal) (Wl : Fin 192 → Fin 64 → EReal) (x u v : Fin 64 → EReal)
    (hx : ∀ k : Fin 64, cat ⟨k.val, by have := k.isLt; omega⟩ = x k)
    (hu : ∀ k : Fin 64, cat ⟨64 + k.val, by have := k.isLt; omega⟩ = u k)
    (hv : ∀ k : Fin 64, cat ⟨128 + k.val, by have := k.isLt; omega⟩ = v k) (q : Fin 64) :
    ∑ k : Fin 192, cat k * Wl k q
      = ((∑ k : Fin 64, x k * Wl ⟨k.val, by have := k.isLt; omega⟩ q)
          + (∑ k : Fin 64, u k * Wl ⟨64 + k.val, by have := k.isLt; omega⟩ q))
        + (∑ k : Fin 64, v k * Wl ⟨128 + k.val, by have := k.isLt; omega⟩ q) := by
  rw [sum_three_stretches fun k => cat k * Wl k q]
  simp only [hx, hu, hv]

end Cert.NodeRow

end
-- ==== Proof.BodyRow.lean ====
/-
  The kernel body's arithmetic, read one output element at a time.

  The body works on a block of 5000 node rows. Its three payloads are: the shared network applied to the block of
  incoming aggregates, the same network applied to the block of outgoing aggregates, and the final projection. Each
  matrix product in the body accumulates into zero, so at the exact instance it is a plain sum over the 64 contracted
  indices; changes of float format are the identity; a bias row of shape [1, 64] is broadcast down the block. Hence the
  element at row `p`, column `q` of the stored block is `NodeRow.out` of row `p` of the three loaded feature blocks.
-/
import proofs.«162999_j30227979829589_2_alg».proof.Proof.Gen.KernelIdeal.Skeleton
import proofs.«162999_j30227979829589_2_alg».proof.Proof.NodeRow
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyRow

open Cert.KernelIdeal Cert.KernelIdeal.Gen Idealize.ShloMosaic Idealize.ShloMosaic.ValueIdx

/-! ## The block matrix product as a sum over the contracted index -/

theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k

theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k

theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000, 64] block times a [64, 64] matrix, accumulated into zero: entry `(p, q)` is `∑ k, l (p, k) · r (k, q)`. -/
theorem matmul_entry {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A [1, 64] bias row, broadcast down the 5000 rows of a block, reads its one row at the column. -/
theorem bias_entry (b : FVec Ideal S1x64 .f32) (p : Fin 5000) (q : Fin 64) :
    broadcastTo S5000x64 b broadcasts_S1x64_S5000x64 (ix2 p q) = b (ix2 (0 : Fin 1) q) :=
  broadcastTo_1b_ab_apply b broadcasts_S1x64_S5000x64 p q

/-! ## The three payloads -/

/-- The network payload over the incoming aggregates: entry `(p, k)` is the network of row `p` of the block. -/
theorem net_in_entry (w1 w2 : Vec Ideal S64x64 .f32) (a : Vec Ideal S5000x64 .f32) (b1 b2 : Vec Ideal S1x64 .f32)
    (p : Fin 5000) (k : Fin 64) :
    k0_pay4 w1 w2 a b1 b2 (ix2 p k)
      = NodeRow.net (fun d h => w1 (ix2 d h)) (fun h => b1 (ix2 (0 : Fin 1) h)) (fun h k => w2 (ix2 h k))
          (fun k => b2 (ix2 (0 : Fin 1) k)) (fun d => a (ix2 p d)) k := by
  unfold k0_pay4 k0_pay2 k0_pay3 NodeRow.net
  simp only [addf_apply, maximumf_apply, truncf_apply, broadcast_apply, matmul_entry, bias_entry, shapeCast_self]
  rfl

/-- The network payload over the outgoing aggregates: the same function of the other block. -/
theorem net_out_entry (w1 w2 : Vec Ideal S64x64 .f32) (a : Vec Ideal S5000x64 .f32) (b1 b2 : Vec Ideal S1x64 .f32)
    (p : Fin 5000) (k : Fin 64) :
    k0_pay5 w1 w2 a b1 b2 (ix2 p k)
      = NodeRow.net (fun d h => w1 (ix2 d h)) (fun h => b1 (ix2 (0 : Fin 1) h)) (fun h k => w2 (ix2 h k))
          (fun k => b2 (ix2 (0 : Fin 1) k)) (fun d => a (ix2 p d)) k := by
  unfold k0_pay5 k0_pay2 k0_pay3 NodeRow.net
  simp only [addf_apply, maximumf_apply, truncf_apply, broadcast_apply, matmul_entry, bias_entry, shapeCast_self]
  rfl

/-- The projection payload: entry `(p, q)` from row `p` of the feature block and of the two network outputs. -/
theorem project_entry (u v : FVec Ideal S5000x64 .f32) (x : Vec Ideal S5000x64 .f32) (wx win wout : Vec Ideal S64x64 .f32)
    (bl : Vec Ideal S1x64 .f32) (p : Fin 5000) (q : Fin 64) :
    k0_pay1 u v x wx win wout bl (ix2 p q)
      = NodeRow.project (fun k q => wx (ix2 k q)) (fun k q => win (ix2 k q)) (fun k q => wout (ix2 k q))
          (fun q => bl (ix2 (0 : Fin 1) q)) (fun k => x (ix2 p k)) (fun k => u (ix2 p k)) (fun k => v (ix2 p k)) q := by
  unfold k0_pay1 NodeRow.project
  simp only [addf_apply, truncf_apply, matmul_entry, bias_entry, shapeCast_self]

/-- The stored block, element by element: `NodeRow.out` of row `p` of the three feature blocks. -/
theorem stored_entry (x a b : Vec Ideal S5000x64 .f32) (w1 : Vec Ideal S64x64 .f32) (b1 : Vec Ideal S1x64 .f32)
    (w2 : Vec Ideal S64x64 .f32) (b2 : Vec Ideal S1x64 .f32) (wx win wout : Vec Ideal S64x64 .f32) (bl : Vec Ideal S1x64 .f32)
    (p : Fin 5000) (q : Fin 64) :
    k0_pay1 (k0_pay4 w1 w2 a b1 b2) (k0_pay5 w1 w2 b b1 b2) x wx win wout bl (ix2 p q)
      = NodeRow.out (fun d h => w1 (ix2 d h)) (fun h => b1 (ix2 (0 : Fin 1) h)) (fun h k => w2 (ix2 h k))
          (fun k => b2 (ix2 (0 : Fin 1) k)) (fun k q => wx (ix2 k q)) (fun k q => win (ix2 k q)) (fun k q => wout (ix2 k q))
          (fun q => bl (ix2 (0 : Fin 1) q)) (fun k => x (ix2 p k)) (fun k => a (ix2 p k)) (fun k => b (ix2 p k)) q := by
  rw [project_entry]
  unfold NodeRow.out
  simp only [net_in_entry, net_out_entry]

end Cert.KernelIdeal.BodyRow

end
-- ==== Proof.NodeBlocks.lean ====
/-
  From blocks to the whole result array.

  What grid point `t` writes back is block `t` of ONE function of the arrays the region finds: row `r` of the result
  is `NodeRow.out` of row `r` of the node features and of the two aggregated arrays, with the weights and biases read
  whole. The 20 blocks of 5000 rows tile the 100000 rows (row `r` lies in block `r / 5000`), hence the result array
  after the run is that function.
-/
import proofs.«162999_j30227979829589_2_alg».proof.Proof.BlockReads
import proofs.«162999_j30227979829589_2_alg».proof.Proof.BodyRow

noncomputable section

namespace Cert.KernelIdeal.NodeBlocks

open Cert.KernelIdeal Cert.KernelIdeal.Gen Idealize.ShloMosaic Idealize.ShloMosaic.TcCoe Idealize.SL.Sem
open Idealize.ShloMosaic.ValueIdx Cert.KernelIdeal.BlockReads
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Row `r`, column `q` of the result: `NodeRow.out` of row `r` of the features and of the two aggregates, with the
    weights and biases as the region finds them. -/
def entry (c : Dev nD) (r : Fin 100000) (q : Fin 64) : EReal :=
  NodeRow.out (fun d h => (V m c (Pipeline.arrRef spec0 3) : S64x64.Idx → EReal) (ix2 d h))
    (fun h => (V m c (Pipeline.arrRef spec0 4) : S1x64.Idx → EReal) (ix2 (0 : Fin 1) h))
    (fun h k => (V m c (Pipeline.arrRef spec0 5) : S64x64.Idx → EReal) (ix2 h k))
    (fun k => (V m c (Pipeline.arrRef spec0 6) : S1x64.Idx → EReal) (ix2 (0 : Fin 1) k))
    (fun k q => (V m c (Pipeline.arrRef spec0 7) : S64x64.Idx → EReal) (ix2 k q))
    (fun k q => (V m c (Pipeline.arrRef spec0 8) : S64x64.Idx → EReal) (ix2 k q))
    (fun k q => (V m c (Pipeline.arrRef spec0 9) : S64x64.Idx → EReal) (ix2 k q))
    (fun q => (V m c (Pipeline.arrRef spec0 10) : S1x64.Idx → EReal) (ix2 (0 : Fin 1) q))
    (fun k => (V m c (Pipeline.arrRef spec0 0) : S100000x64.Idx → EReal) (ix2 r k))
    (fun k => (V m c (Pipeline.arrRef spec0 1) : S100000x64.Idx → EReal) (ix2 r k))
    (fun k => (V m c (Pipeline.arrRef spec0 2) : S100000x64.Idx → EReal) (ix2 r k)) q

/-- The whole result array. -/
def result (c : Dev nD) : S100000x64.Idx → EReal := fun i => entry m c (i 0) (i 1)

theorem result_apply (c : Dev nD) (r : Fin 100000) (q : Fin 64) : result m c (ix2 r q) = entry m c r q := rfl

/-- Where row `p`, column `q` of point `t`'s result block lies in the result array. -/
theorem result_block_index (t : Fin cfg0.N) (p : Fin 5000) (q : Fin 64) :
    ((cfg0.win 11).blk t).view.emb (ix2 p q) = (ix2 (rowOf t p) q : S100000x64.Idx) := by
  funext a; apply Fin.ext
  match a with
  | ⟨0, _⟩ => show win0_11.index t (0 : Fin 2) * 5000 + 1 * p.val = t.val * 5000 + p.val; have h := (index_rows t).2.2.2.1; omega
  | ⟨1, _⟩ => show win0_11.index t (1 : Fin 2) * 64 + 1 * q.val = q.val; have h := (index_rows t).2.2.2.2; omega

/-- What point `t` writes back is block `t` of `result`. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  refine (BodyRow.stored_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  simp only [feat_read m c t, aggIn_read m c t, aggOut_read m c t, w1_read m c t, b1_read m c t, w2_read m c t,
    b2_read m c t, wx_read m c t, win_read m c t, wout_read m c t, bl_read m c t]
  show _ = result m c (((cfg0.win 11).blk t).view.emb (ix2 p q))
  rw [result_block_index t p q, result_apply]
  unfold entry
  rfl

/-- An index of the array is in point `t`'s block iff each coordinate is in the block's range on its axis. -/
theorem mem_block (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v36).slice (win0_11.rect t)).set ↔ _
  rw [View.set_slice_whole, Rect.mem_set_unit]
  exact Iff.rfl

/-- Every index of the result lies in some point's block: row `r` in block `r / 5000`. -/
theorem covered (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  have hN : (i 0).val / 5000 < grid0.N := by rw [N_0]; omega
  have e0 : win0_11.index ⟨(i 0).val / 5000, hN⟩ (0 : Fin 2) = (i 0).val / 5000 := (index_rows ⟨(i 0).val / 5000, hN⟩).2.2.2.1
  have e1 : win0_11.index ⟨(i 0).val / 5000, hN⟩ (1 : Fin 2) = 0 := (index_rows ⟨(i 0).val / 5000, hN⟩).2.2.2.2
  refine ⟨⟨(i 0).val / 5000, hN⟩, flush0_11 _, ?_⟩
  rw [mem_block]
  intro a
  match a with
  | ⟨0, _⟩ =>
    show win0_11.index ⟨(i 0).val / 5000, hN⟩ (0 : Fin 2) * 5000 ≤ (i 0).val ∧ (i 0).val < win0_11.index ⟨(i 0).val / 5000, hN⟩ (0 : Fin 2) * 5000 + 5000
    omega
  | ⟨1, _⟩ =>
    show win0_11.index ⟨(i 0).val / 5000, hN⟩ (1 : Fin 2) * 64 ≤ (i 1).val ∧ (i 1).val < win0_11.index ⟨(i 0).val / 5000, hN⟩ (1 : Fin 2) * 64 + 64
    omega

/-- The result array after the run. -/
theorem final (c : Dev nD) : (dats m 0 c).arrAt 11 cfg0.N = result m c :=
  (dats m 0 c).arrAt_eq_of_cover 11 (result m c) (fun t _ => flushed_eq m c t) covered

/-- The kernel's run with the result array at `result`, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.NodeBlocks

end
-- ==== Proof.EntryArrays.lean ====
/-
  What the region finds in each window's array, as a term of the launch memory.

  Before the region the program computes, on the host, the two aggregated arrays (gather the source or destination
  rows, add the edge features, rectify, scatter-add into the destination or source rows), makes each bias a row, and
  cuts the 192 × 64 matrix into its three blocks of 64 rows. The aggregated arrays are the SAME compositions of host
  operations the reference applies to the same arguments, so they are stated as the reference's own terms and are never
  opened. A bias row read at `(0, q)` is the bias at `q`; block `j` of the matrix read at `(k, q)` is the matrix at
  `(64·j + k, q)`. With these, the result array's element is `NodeRow.out` over the launch memory.
-/
import proofs.«162999_j30227979829589_2_alg».proof.Proof.NodeBlocks
import proofs.«162999_j30227979829589_2_alg».proof.Proof.Gen.ReferenceIdeal.Read
import Idealize.ShloMosaic.Lib.StableHlo.Run
import Idealize.ShloMosaic.Lib.ValueLayout

noncomputable section

namespace Cert.NodeRow

/-- `out` depends only on its eleven arguments. -/
theorem out_congr {W1 W1' : Fin 64 → Fin 64 → EReal} {b1 b1' : Fin 64 → EReal} {W2 W2' : Fin 64 → Fin 64 → EReal}
    {b2 b2' : Fin 64 → EReal} {Wx Wx' Win Win' Wout Wout' : Fin 64 → Fin 64 → EReal} {bl bl' : Fin 64 → EReal}
    {x x' a a' b b' : Fin 64 → EReal}
    (h1 : W1 = W1') (h2 : b1 = b1') (h3 : W2 = W2') (h4 : b2 = b2') (h5 : Wx = Wx') (h6 : Win = Win') (h7 : Wout = Wout')
    (h8 : bl = bl') (h9 : x = x') (h10 : a = a') (h11 : b = b') (q : Fin 64) :
    out W1 b1 W2 b2 Wx Win Wout bl x a b q = out W1' b1' W2' b2' Wx' Win' Wout' bl' x' a' b' q := by
  subst h1 h2 h3 h4 h5 h6 h7 h8 h9 h10 h11
  rfl

end Cert.NodeRow

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx Cert.KernelIdeal.NodeBlocks

variable (m : (ℓ : Loc nD τ sig) → Buf (Elt Ideal) ℓ)

/-- The region's entry contents at two spellings of one buffer. -/
theorem V_at (c : Dev nD) {a b : Ref sig .tc} (h : a = b) : HEq (V m c a) (V m c b) := by subst h; rfl

/-! ## Each window's array as the region finds it -/

theorem found_feat (c : Dev nD) :
    (V m c (Pipeline.arrRef spec0 0) : S100000x64.Idx → EReal) = (m ((c : Thread nD τ).loc main_arg0)) :=
  (eq_of_heq (V_at m c (rfl : Pipeline.arrRef spec0 0 = main_arg0))).trans (V_main_arg0 m c)

theorem found_aggIn (c : Dev nD) :
    (V m c (Pipeline.arrRef spec0 1) : S100000x64.Idx → EReal) = Cert.ReferenceIdeal.Read.val_main_v16 (F := Ideal) (m ((c : Thread nD τ).loc main_arg0)) (m ((c : Thread nD τ).loc main_arg1)) (m ((c : Thread nD τ).loc main_arg2)) := by
  refine (eq_of_heq (V_at m c (rfl : Pipeline.arrRef spec0 1 = main_v16))).trans ?_
  dsimp only [Gen.V, Gen.hostOps0]
  after_results_simp <;> rfl

theorem found_aggOut (c : Dev nD) :
    (V m c (Pipeline.arrRef spec0 2) : S100000x64.Idx → EReal) = Cert.ReferenceIdeal.Read.val_main_v39 (F := Ideal) (m ((c : Thread nD τ).loc main_arg0)) (m ((c : Thread nD τ).loc main_arg1)) (m ((c : Thread nD τ).loc main_arg2)) := by
  refine (eq_of_heq (V_at m c (rfl : Pipeline.arrRef spec0 2 = main_v29))).trans ?_
  dsimp only [Gen.V, Gen.hostOps0]
  after_results_simp <;> rfl

theorem found_w1 (c : Dev nD) :
    (V m c (Pipeline.arrRef spec0 3) : S64x64.Idx → EReal) = (m ((c : Thread nD τ).loc main_arg3)) :=
  (eq_of_heq (V_at m c (rfl : Pipeline.arrRef spec0 3 = main_arg3))).trans (V_main_arg3 m c)

theorem found_b1 (c : Dev nD) :
    (V m c (Pipeline.arrRef spec0 4) : S1x64.Idx → EReal) = shapeCast S1x64 ((m ((c : Thread nD τ).loc main_arg4)) : S64.Idx → EReal) shapeCasts_S64_S1x64 := by
  refine (eq_of_heq (V_at m c (rfl : Pipeline.arrRef spec0 4 = main_v30))).trans ?_
  dsimp only [Gen.V, Gen.hostOps0]
  after_results_simp <;> rfl

theorem found_w2 (c : Dev nD) :
    (V m c (Pipeline.arrRef spec0 5) : S64x64.Idx → EReal) = (m ((c : Thread nD τ).loc main_arg5)) :=
  (eq_of_heq (V_at m c (rfl : Pipeline.arrRef spec0 5 = main_arg5))).trans (V_main_arg5 m c)

theorem found_b2 (c : Dev nD) :
    (V m c (Pipeline.arrRef spec0 6) : S1x64.Idx → EReal) = shapeCast S1x64 ((m ((c : Thread nD τ).loc main_arg6)) : S64.Idx → EReal) shapeCasts_S64_S1x64 := by
  refine (eq_of_heq (V_at m c (rfl : Pipeline.arrRef spec0 6 = main_v31))).trans ?_
  dsimp only [Gen.V, Gen.hostOps0]
  after_results_simp <;> rfl

theorem found_wx (c : Dev nD) :
    (V m c (Pipeline.arrRef spec0 7) : S64x64.Idx → EReal) = extractStridedSlice S64x64 ![0, 0] ((m ((c : Thread nD τ).loc main_arg7)) : S192x64.Idx → EReal) slices_S192x64_S64x64_0_0 := by
  refine (eq_of_heq (V_at m c (rfl : Pipeline.arrRef spec0 7 = main_v32))).trans ?_
  dsimp only [Gen.V, Gen.hostOps0]
  after_results_simp <;> rfl

theorem found_win (c : Dev nD) :
    (V m c (Pipeline.arrRef spec0 8) : S64x64.Idx → EReal) = extractStridedSlice S64x64 ![64, 0] ((m ((c : Thread nD τ).loc main_arg7)) : S192x64.Idx → EReal) slices_S192x64_S64x64_64_0 := by
  refine (eq_of_heq (V_at m c (rfl : Pipeline.arrRef spec0 8 = main_v33))).trans ?_
  dsimp only [Gen.V, Gen.hostOps0]
  after_results_simp <;> rfl

theorem found_wout (c : Dev nD) :
    (V m c (Pipeline.arrRef spec0 9) : S64x64.Idx → EReal) = extractStridedSlice S64x64 ![128, 0] ((m ((c : Thread nD τ).loc main_arg7)) : S192x64.Idx → EReal) slices_S192x64_S64x64_128_0 := by
  refine (eq_of_heq (V_at m c (rfl : Pipeline.arrRef spec0 9 = main_v34))).trans ?_
  dsimp only [Gen.V, Gen.hostOps0]
  after_results_simp <;> rfl

theorem found_bl (c : Dev nD) :
    (V m c (Pipeline.arrRef spec0 10) : S1x64.Idx → EReal) = shapeCast S1x64 ((m ((c : Thread nD τ).loc main_arg8)) : S64.Idx → EReal) shapeCasts_S64_S1x64 := by
  refine (eq_of_heq (V_at m c (rfl : Pipeline.arrRef spec0 10 = main_v35))).trans ?_
  dsimp only [Gen.V, Gen.hostOps0]
  after_results_simp <;> rfl

/-! ## The result's element over the launch memory -/

/-- A bias made a row, read at `(0, q)`: the bias at `q`. -/
theorem row_of_bias (b : S64.Idx → EReal) :
    (fun q : Fin 64 => shapeCast S1x64 b shapeCasts_S64_S1x64 (ix2 (0 : Fin 1) q)) = fun q => b (ix1 q) :=
  funext fun q => shapeCast_a_1a_apply b shapeCasts_S64_S1x64 0 q

/-- Row `r`, column `q` of the result array over the launch memory: `NodeRow.out` of row `r` of the node features and
    of the two aggregated arrays (the reference's own terms for them), the last matrix as its three blocks of rows. -/
theorem entry_closed (c : Dev nD) (r : Fin 100000) (q : Fin 64) :
    entry m c r q
      = NodeRow.out (fun d h => ((m ((c : Thread nD τ).loc main_arg3)) : S64x64.Idx → EReal) (ix2 d h))
          (fun h => ((m ((c : Thread nD τ).loc main_arg4)) : S64.Idx → EReal) (ix1 h))
          (fun h k => ((m ((c : Thread nD τ).loc main_arg5)) : S64x64.Idx → EReal) (ix2 h k))
          (fun k => ((m ((c : Thread nD τ).loc main_arg6)) : S64.Idx → EReal) (ix1 k))
          (fun k q => ((m ((c : Thread nD τ).loc main_arg7)) : S192x64.Idx → EReal) (ix2 (⟨k.val, by have := k.isLt; omega⟩ : Fin 192) q))
          (fun k q => ((m ((c : Thread nD τ).loc main_arg7)) : S192x64.Idx → EReal) (ix2 (⟨64 + k.val, by have := k.isLt; omega⟩ : Fin 192) q))
          (fun k q => ((m ((c : Thread nD τ).loc main_arg7)) : S192x64.Idx → EReal) (ix2 (⟨128 + k.val, by have := k.isLt; omega⟩ : Fin 192) q))
          (fun q => ((m ((c : Thread nD τ).loc main_arg8)) : S64.Idx → EReal) (ix1 q))
          (fun k => ((m ((c : Thread nD τ).loc main_arg0)) : S100000x64.Idx → EReal) (ix2 r k))
          (fun k => Cert.ReferenceIdeal.Read.val_main_v16 (F := Ideal) (m ((c : Thread nD τ).loc main_arg0)) (m ((c : Thread nD τ).loc main_arg1)) (m ((c : Thread nD τ).loc main_arg2)) (ix2 r k))
          (fun k => Cert.ReferenceIdeal.Read.val_main_v39 (F := Ideal) (m ((c : Thread nD τ).loc main_arg0)) (m ((c : Thread nD τ).loc main_arg1)) (m ((c : Thread nD τ).loc main_arg2)) (ix2 r k)) q := by
  unfold entry
  refine NodeRow.out_congr ?_ ?_ ?_ ?_ ?_ ?_ ?_ ?_ ?_ ?_ ?_ q
  · rw [found_w1 m c]
  · rw [found_b1 m c]; exact row_of_bias _
  · rw [found_w2 m c]
  · rw [found_b2 m c]; exact row_of_bias _
  · rw [found_wx m c]
    funext k q
    exact slice2_axis0_apply 0 _ slices_S192x64_S64x64_0_0 k q _ (by show k.val = 0 + k.val; omega)
  · rw [found_win m c]
    funext k q
    exact slice2_axis0_apply 64 _ slices_S192x64_S64x64_64_0 k q _ rfl
  · rw [found_wout m c]
    funext k q
    exact slice2_axis0_apply 128 _ slices_S192x64_S64x64_128_0 k q _ rfl
  · rw [found_bl m c]; exact row_of_bias _
  · rw [found_feat m c]
  · rw [found_aggIn m c]
  · rw [found_aggOut m c]

end Cert.KernelIdeal.EntryArrays

end
-- ==== Proof.RefNet.lean ====
/-
  The reference's shared network, as a function of ANY aggregated array, read one element at a time.

  The reference applies the network as whole-array operations: a matrix product with the first weight matrix, the first
  bias broadcast over the node rows, the rectifier, a product with the second matrix and the second bias. Read at row
  `r`, column `k`, each matrix product is a sum over its contracted index and each broadcast bias is the bias at the
  column, so the element is `NodeRow.net` of row `r` of the array the network is applied to. The network is stated here
  for an arbitrary array in the aggregate's place: what it is applied to enters only through its row `r`.
-/
import proofs.«162999_j30227979829589_2_alg».proof.Proof.Gen.ReferenceIdeal.Read
import proofs.«162999_j30227979829589_2_alg».proof.Proof.NodeRow
import Idealize.ShloMosaic.Lib.ValueIdx
import Idealize.ShloMosaic.PureOps.Ideal.Laws

noncomputable section

namespace Cert.ReferenceIdeal.RefNet

open Cert.ReferenceIdeal Cert.ReferenceIdeal.Read Idealize.ShloMosaic Idealize.ShloMosaic.ValueIdx

/-- An array of node rows: 100000 rows of 64 extended reals. -/
abbrev Nodes : Type := FVec Ideal S100000x64 .f32

/-! ## The operations, read at a row and a column -/

/-- A [100000, 64] array times a [64, 64] matrix on the host: entry `(r, q)` is `∑ k, l (r, k) · w (k, q)`. -/
theorem dot_entry (l : Nodes) (w : FVec Ideal S64x64 .f32) (r : Fin 100000) (q : Fin 64) :
    Host.dotGeneral (F := Ideal) dot_S100000x64_S64x64_S100000x64_1_0_0_1_n_n none l w (ix2 r q) = ∑ k : Fin 64, l (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs_main_v17_0 _ _
    | ⟨1, _⟩ => exact (lhs_main_v17_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs_main_v17_0 _ _).trans hk
    | ⟨1, _⟩ => exact rhs_main_v17_1 _ _)
  rw [el, er]

theorem bias_index (r : Fin 100000) (q : Fin 64) : idx_main_v18 (idx_main_v19 (ix2 r q)) = ix1 q :=
  funext fun a => Fin.ext (by match a with | ⟨0, _⟩ => rfl)

/-- A bias of 64 entries, made a row and broadcast over the node rows, read at `(r, q)`: the bias at `q`. -/
theorem bias_entry (b : FVec Ideal S64 .f32) (r : Fin 100000) (q : Fin 64) :
    val_main_v19 (F := Ideal) b (ix2 r q) = b (ix1 q) := by
  rw [val_main_v19_apply, val_main_v18_apply, bias_index]

/-- The rectifier's lower bound, a zero broadcast over the node rows, read anywhere: the value of the zero word. -/
theorem floor_entry (r : Fin 100000) (q : Fin 64) :
    val_main_v21 (F := Ideal) (ix2 r q) = NodeRow.floor0 := by
  rw [val_main_v21_apply, val_main_cst_2_apply]
  rfl

/-! ## The network -/

/-- The reference's network on an array `A` of node rows, as the whole-array operations the reference applies. -/
def net (A : Nodes) (W1 : FVec Ideal S64x64 .f32) (b1 : FVec Ideal S64 .f32) (W2 : FVec Ideal S64x64 .f32) (b2 : FVec Ideal S64 .f32) : Nodes :=
  addf (F := Ideal) (Host.dotGeneral (F := Ideal) dot_S100000x64_S64x64_S100000x64_1_0_0_1_n_n none
      (maximumf (F := Ideal) (addf (F := Ideal) (Host.dotGeneral (F := Ideal) dot_S100000x64_S64x64_S100000x64_1_0_0_1_n_n none A W1) (val_main_v19 (F := Ideal) b1)) (val_main_v21 (F := Ideal))) W2)
    (val_main_v19 (F := Ideal) b2)

/-- Its element at `(r, k)`: `NodeRow.net` of row `r` of `A`. -/
theorem net_entry (A : Nodes) (W1 : FVec Ideal S64x64 .f32) (b1 : FVec Ideal S64 .f32) (W2 : FVec Ideal S64x64 .f32) (b2 : FVec Ideal S64 .f32) (r : Fin 100000) (k : Fin 64) :
    net A W1 b1 W2 b2 (ix2 r k)
      = NodeRow.net (fun d h => W1 (ix2 d h)) (fun h => b1 (ix1 h)) (fun h k => W2 (ix2 h k)) (fun k => b2 (ix1 k))
          (fun d => A (ix2 r d)) k := by
  unfold net NodeRow.net
  simp only [addf_apply, maximumf_apply, dot_entry, bias_entry, floor_entry]

end Cert.ReferenceIdeal.RefNet

end
-- ==== Proof.RefRow.lean ====
/-
  The reference's result, as a function of ANY two aggregated arrays, read one element at a time.

  The reference joins the node features and the two network outputs side by side into an array of 192 columns,
  multiplies by the 192 × 64 matrix and adds the last bias. Column `k` of the joined array is the features' column
  `k`, the first network output's column `k - 64` or the second's column `k - 128`. By `NodeRow.joined_row_dot` the
  product over 192 splits into the three products over 64, so the element at row `r`, column `q` is `NodeRow.out` of
  row `r` of the features and of the two arrays the network is applied to, against the three row blocks of the last
  matrix.
-/
import proofs.«162999_j30227979829589_2_alg».proof.Proof.RefNet
import Idealize.ShloMosaic.Lib.Pipeline.Value

noncomputable section

namespace Cert.ReferenceIdeal.RefRow

open Cert.ReferenceIdeal Cert.ReferenceIdeal.Gen Cert.ReferenceIdeal.Read Cert.ReferenceIdeal.RefNet Idealize.ShloMosaic Idealize.ShloMosaic.ValueIdx

/-! ## The last product and bias, read at a row and a column -/

/-- A [100000, 192] array times a [192, 64] matrix on the host: entry `(r, q)` is `∑ k, l (r, k) · w (k, q)`. -/
theorem wide_dot_entry (l : FVec Ideal S100000x192 .f32) (w : FVec Ideal S192x64 .f32) (r : Fin 100000) (q : Fin 64) :
    Host.dotGeneral (F := Ideal) dot_S100000x192_S192x64_S100000x64_1_0_0_1_n_n none l w (ix2 r q) = ∑ k : Fin 192, l (ix2 r k) * w (ix2 k q) := by
  simp only [Host.dotGeneral]
  rw [Ideal.dotGeneral_apply, ← Equiv.sum_comp (ValueIdx.contrEquiv1 dot_S100000x192_S192x64_S100000x64_1_0_0_1_n_n 192 rfl rfl).symm]
  refine Finset.sum_congr rfl fun k _ => ?_
  have hk := ValueIdx.contrEquiv1_symm_val dot_S100000x192_S192x64_S100000x64_1_0_0_1_n_n 192 rfl rfl k
  have el : dot_S100000x192_S192x64_S100000x64_1_0_0_1_n_n.lhsIdx (ix2 r q) ((ValueIdx.contrEquiv1 dot_S100000x192_S192x64_S100000x64_1_0_0_1_n_n 192 rfl rfl).symm k) = ix2 r k := funext fun a => Fin.ext (by
    match a with
    | ⟨0, _⟩ => exact lhs_main_v51_0 _ _
    | ⟨1, _⟩ => exact (lhs_main_v51_1 _ _).trans hk)
  have er : dot_S100000x192_S192x64_S100000x64_1_0_0_1_n_n.rhsIdx (ix2 r q) ((ValueIdx.contrEquiv1 dot_S100000x192_S192x64_S100000x64_1_0_0_1_n_n 192 rfl rfl).symm k) = ix2 k q := funext fun a => Fin.ext (by
    match a with
    | ⟨0, _⟩ => exact (rhs_main_v51_0 _ _).trans hk
    | ⟨1, _⟩ => exact rhs_main_v51_1 _ _)
  rw [el, er]

theorem last_bias_index (r : Fin 100000) (q : Fin 64) : idx_main_v52 (idx_main_v53 (ix2 r q)) = ix1 q :=
  funext fun a => Fin.ext (by match a with | ⟨0, _⟩ => rfl)

/-- The last bias, made a row and broadcast over the node rows, read at `(r, q)`: the bias at `q`. -/
theorem last_bias_entry (b : FVec Ideal S64 .f32) (r : Fin 100000) (q : Fin 64) :
    val_main_v53 (F := Ideal) b (ix2 r q) = b (ix1 q) := by
  rw [val_main_v53_apply, val_main_v52_apply, last_bias_index]

/-! ## Three arrays of 64 columns joined side by side, column by column -/

theorem joined_first (a b c : Nodes) (r : Fin 100000) (k : Fin 64) :
    concatenate S100000x192 1 [⟨S100000x64, a⟩, ⟨S100000x64, b⟩, ⟨S100000x64, c⟩] concatenates_S100000x64_S100000x64_S100000x64_S100000x192_d1
      (ix2 r (⟨k.val, by have := k.isLt; omega⟩ : Fin 192)) = a (ix2 r k) := by
  refine concatenate_apply_piece (t := S100000x192) (1 : Fin 2) [⟨S100000x64, a⟩, ⟨S100000x64, b⟩, ⟨S100000x64, c⟩] concatenates_S100000x64_S100000x64_S100000x64_S100000x192_d1 (ix2 r (⟨k.val, by have := k.isLt; omega⟩ : Fin 192)) 0 (by show (0 : Nat) < 3; omega)
    S100000x64 a rfl rfl 0 rfl (ix2 r k) (fun d hd => ?_) ?_
  · match d with
    | ⟨0, _⟩ => rfl
    | ⟨1, _⟩ => exact absurd rfl hd
  · show 0 + k.val = k.val
    omega

theorem joined_middle (a b c : Nodes) (r : Fin 100000) (k : Fin 64) :
    concatenate S100000x192 1 [⟨S100000x64, a⟩, ⟨S100000x64, b⟩, ⟨S100000x64, c⟩] concatenates_S100000x64_S100000x64_S100000x64_S100000x192_d1
      (ix2 r (⟨64 + k.val, by have := k.isLt; omega⟩ : Fin 192)) = b (ix2 r k) := by
  refine concatenate_apply_piece (t := S100000x192) (1 : Fin 2) [⟨S100000x64, a⟩, ⟨S100000x64, b⟩, ⟨S100000x64, c⟩] concatenates_S100000x64_S100000x64_S100000x64_S100000x192_d1 (ix2 r (⟨64 + k.val, by have := k.isLt; omega⟩ : Fin 192)) 1 (by show (1 : Nat) < 3; omega)
    S100000x64 b rfl rfl 64 rfl (ix2 r k) (fun d hd => ?_) ?_
  · match d with
    | ⟨0, _⟩ => rfl
    | ⟨1, _⟩ => exact absurd rfl hd
  · rfl

theorem joined_last (a b c : Nodes) (r : Fin 100000) (k : Fin 64) :
    concatenate S100000x192 1 [⟨S100000x64, a⟩, ⟨S100000x64, b⟩, ⟨S100000x64, c⟩] concatenates_S100000x64_S100000x64_S100000x64_S100000x192_d1
      (ix2 r (⟨128 + k.val, by have := k.isLt; omega⟩ : Fin 192)) = c (ix2 r k) := by
  refine concatenate_apply_piece (t := S100000x192) (1 : Fin 2) [⟨S100000x64, a⟩, ⟨S100000x64, b⟩, ⟨S100000x64, c⟩] concatenates_S100000x64_S100000x64_S100000x64_S100000x192_d1 (ix2 r (⟨128 + k.val, by have := k.isLt; omega⟩ : Fin 192)) 2 (by show (2 : Nat) < 3; omega)
    S100000x64 c rfl rfl 128 rfl (ix2 r k) (fun d hd => ?_) ?_
  · match d with
    | ⟨0, _⟩ => rfl
    | ⟨1, _⟩ => exact absurd rfl hd
  · rfl

/-! ## The projection and the whole layer -/

/-- The reference's last step on three arrays of node rows: join, multiply, add the bias. -/
def project (x u v : Nodes) (Wl : FVec Ideal S192x64 .f32) (bl : FVec Ideal S64 .f32) : Nodes :=
  addf (F := Ideal) (Host.dotGeneral (F := Ideal) dot_S100000x192_S192x64_S100000x64_1_0_0_1_n_n none
      (concatenate S100000x192 1 [⟨S100000x64, x⟩, ⟨S100000x64, u⟩, ⟨S100000x64, v⟩] concatenates_S100000x64_S100000x64_S100000x64_S100000x192_d1) Wl)
    (val_main_v53 (F := Ideal) bl)

theorem project_entry (x u v : Nodes) (Wl : FVec Ideal S192x64 .f32) (bl : FVec Ideal S64 .f32) (r : Fin 100000) (q : Fin 64) :
    project x u v Wl bl (ix2 r q)
      = NodeRow.project (fun k q => Wl (ix2 (⟨k.val, by have := k.isLt; omega⟩ : Fin 192) q))
          (fun k q => Wl (ix2 (⟨64 + k.val, by have := k.isLt; omega⟩ : Fin 192) q))
          (fun k q => Wl (ix2 (⟨128 + k.val, by have := k.isLt; omega⟩ : Fin 192) q))
          (fun q => bl (ix1 q)) (fun k => x (ix2 r k)) (fun k => u (ix2 r k)) (fun k => v (ix2 r k)) q := by
  unfold project NodeRow.project
  rw [addf_apply, wide_dot_entry, last_bias_entry,
    NodeRow.joined_row_dot
      (fun k => concatenate S100000x192 1 [⟨S100000x64, x⟩, ⟨S100000x64, u⟩, ⟨S100000x64, v⟩] concatenates_S100000x64_S100000x64_S100000x64_S100000x192_d1 (ix2 r k))
      (fun k q => Wl (ix2 k q)) (fun k => x (ix2 r k)) (fun k => u (ix2 r k)) (fun k => v (ix2 r k))
      (fun k => joined_first x u v r k) (fun k => joined_middle x u v r k) (fun k => joined_last x u v r k) q]

/-- The reference's layer on node features `x` and ANY two arrays `a`, `b` in the aggregates' places. -/
def layer (x a b : Nodes) (W1 : FVec Ideal S64x64 .f32) (b1 : FVec Ideal S64 .f32) (W2 : FVec Ideal S64x64 .f32) (b2 : FVec Ideal S64 .f32) (Wl : FVec Ideal S192x64 .f32) (bl : FVec Ideal S64 .f32) : Nodes :=
  project x (RefNet.net a W1 b1 W2 b2) (RefNet.net b W1 b1 W2 b2) Wl bl

/-- Its element at `(r, q)`: `NodeRow.out` of row `r` of `x`, `a`, `b`. -/
theorem layer_entry (x a b : Nodes) (W1 : FVec Ideal S64x64 .f32) (b1 : FVec Ideal S64 .f32) (W2 : FVec Ideal S64x64 .f32) (b2 : FVec Ideal S64 .f32) (Wl : FVec Ideal S192x64 .f32) (bl : FVec Ideal S64 .f32)
    (r : Fin 100000) (q : Fin 64) :
    layer x a b W1 b1 W2 b2 Wl bl (ix2 r q)
      = NodeRow.out (fun d h => W1 (ix2 d h)) (fun h => b1 (ix1 h)) (fun h k => W2 (ix2 h k)) (fun k => b2 (ix1 k))
          (fun k q => Wl (ix2 (⟨k.val, by have := k.isLt; omega⟩ : Fin 192) q))
          (fun k q => Wl (ix2 (⟨64 + k.val, by have := k.isLt; omega⟩ : Fin 192) q))
          (fun k q => Wl (ix2 (⟨128 + k.val, by have := k.isLt; omega⟩ : Fin 192) q))
          (fun q => bl (ix1 q)) (fun k => x (ix2 r k)) (fun k => a (ix2 r k)) (fun k => b (ix2 r k)) q := by
  unfold layer NodeRow.out
  rw [project_entry]
  simp only [net_entry]

end Cert.ReferenceIdeal.RefRow

end
-- ==== Proof.RefWhole.lean ====
/-
  The reference IS the layer applied to the two aggregated arrays it computes.

  The reference's printed operations, composed, are `RefRow.layer` of the node features and of the two arrays its
  gather–add–rectify–scatter stages produce: the same operations in the same order, so the equation holds by unfolding
  the names. The aggregated arrays are never opened. Read at a row and a column, the reference's result is therefore
  `NodeRow.out` of that row of the features and of the two aggregated arrays.
-/
import proofs.«162999_j30227979829589_2_alg».proof.Proof.RefRow

noncomputable section

namespace Cert.ReferenceIdeal.RefWhole

open Cert.ReferenceIdeal Cert.ReferenceIdeal.Read Idealize.ShloMosaic Idealize.ShloMosaic.ValueIdx

theorem result_is_layer (x0 : (⟨S100000x64, .f32⟩ : BufTy).Contents (Elt Ideal)) (x1 : (⟨S2x1250000, .i32⟩ : BufTy).Contents (Elt Ideal)) (x2 : (⟨S1250000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S192x64, .f32⟩ : BufTy).Contents (Elt Ideal)) (x8 : (⟨S64, .f32⟩ : BufTy).Contents (Elt Ideal)) :
    val_main_v54 (F := Ideal) x0 x1 x2 x3 x4 x5 x6 x7 x8
      = RefRow.layer x0 (val_main_v16 (F := Ideal) x0 x1 x2) (val_main_v39 (F := Ideal) x0 x1 x2) x3 x4 x5 x6 x7 x8 := rfl

/-- The reference's result at `(r, q)`. -/
theorem result_entry (x0 : (⟨S100000x64, .f32⟩ : BufTy).Contents (Elt Ideal)) (x1 : (⟨S2x1250000, .i32⟩ : BufTy).Contents (Elt Ideal)) (x2 : (⟨S1250000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S192x64, .f32⟩ : BufTy).Contents (Elt Ideal)) (x8 : (⟨S64, .f32⟩ : BufTy).Contents (Elt Ideal)) (r : Fin 100000) (q : Fin 64) :
    val_main_v54 (F := Ideal) x0 x1 x2 x3 x4 x5 x6 x7 x8 (ix2 r q)
      = NodeRow.out (fun d h => x3 (ix2 d h)) (fun h => x4 (ix1 h)) (fun h k => x5 (ix2 h k)) (fun k => x6 (ix1 k))
          (fun k q => x7 (ix2 (⟨k.val, by have := k.isLt; omega⟩ : Fin 192) q))
          (fun k q => x7 (ix2 (⟨64 + k.val, by have := k.isLt; omega⟩ : Fin 192) q))
          (fun k q => x7 (ix2 (⟨128 + k.val, by have := k.isLt; omega⟩ : Fin 192) q))
          (fun q => x8 (ix1 q))
          (fun k => x0 (ix2 r k))
          (fun k => val_main_v16 (F := Ideal) x0 x1 x2 (ix2 r k))
          (fun k => val_main_v39 (F := Ideal) x0 x1 x2 (ix2 r k)) q :=
  (congrFun (result_is_layer x0 x1 x2 x3 x4 x5 x6 x7 x8) (ix2 r q)).trans
    (RefRow.layer_entry x0 (val_main_v16 (F := Ideal) x0 x1 x2) (val_main_v39 (F := Ideal) x0 x1 x2) x3 x4 x5 x6 x7 x8 r q)

end Cert.ReferenceIdeal.RefWhole

end
-- ==== Proof.lean ====
/-
  A bidirectional graph-convolution layer: the fused kernel against the plain formulation.

  Both programs first aggregate, on the host and by the same operations, the rectified sums `relu(x[src] + e)` into the
  destination rows and `relu(x[dst] + e)` into the source rows. The kernel then, for each block of 5000 node rows,
  applies the shared two-layer network to the block's rows of both aggregated arrays and adds the three products of the
  node features and of the two network outputs with the three 64-row blocks of the last matrix, plus the last bias. The
  reference applies the network to the whole arrays, joins features and outputs into 192 columns, and multiplies once by
  the whole 192-row matrix.

  At the exact instance a change of float format is the identity and every matrix product is a plain sum, so row `r` of
  either result is the same function `NodeRow.out` of row `r` of the features and of the two aggregated arrays; the only
  law needed between the two arrangements is that a sum over 192 indices is the sum of the sums over its three stretches
  of 64, which holds in any commutative monoid: finiteness of the inputs is never used. The aggregated arrays are never
  opened: both programs compute them by the same composition of host operations on the same arguments.

  The kernel's three frames and the kernel's run with its result array named are the generated modules'; the reference's
  frame is its generated run with the result dropped; the idealization rewrote nothing, so `preserves` is `True`.
-/
import proofs.«162999_j30227979829589_2_alg».proof.Defs
import proofs.«162999_j30227979829589_2_alg».proof.Proof.Gen.Kernel
import proofs.«162999_j30227979829589_2_alg».proof.Proof.Gen.Kernel.Skeleton
import proofs.«162999_j30227979829589_2_alg».proof.Proof.Gen.Kernel.Launch
import proofs.«162999_j30227979829589_2_alg».proof.Proof.Gen.Kernel.Points
import proofs.«162999_j30227979829589_2_alg».proof.Proof.Gen.Kernel.Frame
import proofs.«162999_j30227979829589_2_alg».proof.Proof.Gen.KernelIdeal
import proofs.«162999_j30227979829589_2_alg».proof.Proof.Gen.KernelIdeal.Skeleton
import proofs.«162999_j30227979829589_2_alg».proof.Proof.Gen.KernelIdeal.Launch
import proofs.«162999_j30227979829589_2_alg».proof.Proof.Gen.KernelIdeal.Points
import proofs.«162999_j30227979829589_2_alg».proof.Proof.Gen.KernelIdeal.Frame
import proofs.«162999_j30227979829589_2_alg».proof.Proof.Gen.ReferenceIdeal
import proofs.«162999_j30227979829589_2_alg».proof.Proof.Gen.Pre_finite_inputs
import proofs.«162999_j30227979829589_2_alg».proof.Proof.Gen.KernelIdeal.Value
import proofs.«162999_j30227979829589_2_alg».proof.Proof.Gen.ReferenceIdeal.Run
import proofs.«162999_j30227979829589_2_alg».proof.Proof.Gen.ReferenceIdeal.Read
import proofs.«162999_j30227979829589_2_alg».proof.Proof.EntryArrays
import proofs.«162999_j30227979829589_2_alg».proof.Proof.RefWhole
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array is the reference's result term of the same launch memory: element by element both are
    `NodeRow.out` of the element's row of the node features and of the two aggregated arrays. -/
theorem result_eq (m : (ℓ : Loc Cert.KernelIdeal.nD Cert.KernelIdeal.τ Cert.KernelIdeal.sig) → Buf (Elt Ideal) ℓ)
    (c : Dev Cert.KernelIdeal.nD) :
    Cert.KernelIdeal.NodeBlocks.result m c
      = Cert.ReferenceIdeal.Read.val_main_v54 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8)) := by
  funext i
  obtain ⟨r, q, rfl⟩ : ∃ (r : Fin 100000) (q : Fin 64), i = ix2 r q := ⟨i 0, i 1, eq_ix2 i⟩
  exact (Cert.KernelIdeal.NodeBlocks.result_apply m c r q).trans
    ((Cert.KernelIdeal.EntryArrays.entry_closed m c r q).trans
      (Cert.ReferenceIdeal.RefWhole.result_entry
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8)) r q).symm)

theorem algebraic : Cert.algebraic_KernelIdeal_ReferenceIdeal := by
  intro m ρ m' ρ' _ hagree
  refine ⟨fun c => Cert.KernelIdeal.NodeBlocks.result m c, Cert.KernelIdeal.NodeBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v54_eq, h0, h1, h2, h3, h4, h5, h6, h7, h8]
  exact (result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
